-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x12 : Shape := ⟨2, ![8192, 12]⟩
abbrev S512x1 : Shape := ⟨2, ![512, 1]⟩
abbrev S512x12 : Shape := ⟨2, ![512, 12]⟩
abbrev S512x144 : Shape := ⟨2, ![512, 144]⟩
abbrev S512x1728 : Shape := ⟨2, ![512, 1728]⟩
abbrev S512x20736 : Shape := ⟨2, ![512, 20736]⟩
abbrev S_ : Shape := ⟨0, ![]⟩

class Facts : Prop where
  bcast_S_S8192x12 : S_.BroadcastsInDim S8192x12 (![] : Fin 0 → Fin S8192x12.rank)
  reducesTo_S8192x12_S_d0_1 : S8192x12.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S512x12 : S_.BroadcastsInDim S512x12 (![] : Fin 0 → Fin S512x12.rank)
  reducesTo_S512x12_S_d0_1 : S512x12.ReducesTo [0, 1] S_
  bcast_S_S512x144 : S_.BroadcastsInDim S512x144 (![] : Fin 0 → Fin S512x144.rank)
  reducesTo_S512x144_S_d0_1 : S512x144.ReducesTo [0, 1] S_
  bcast_S_S512x1728 : S_.BroadcastsInDim S512x1728 (![] : Fin 0 → Fin S512x1728.rank)
  reducesTo_S512x1728_S_d0_1 : S512x1728.ReducesTo [0, 1] S_
  bcast_S_S512x20736 : S_.BroadcastsInDim S512x20736 (![] : Fin 0 → Fin S512x20736.rank)
  reducesTo_S512x20736_S_d0_1 : S512x20736.ReducesTo [0, 1] S_

variable [Facts]

def fn_part1 {F : FTy → Type} [FloatOps F] (main_arg4 : FVec F S512x1728 .f32) (main_arg5 : FVec F S512x20736 .f32) (main_v13 : IVec S_ 1) (main_v16 : IVec S512x144 1) : IVec S_ 1 :=
  let main_c_5 : IVec S_ 1 := constantI S_ 1 1#1
  let main_v17 : IVec S_ 1 := (fun x v => Host.reduce IntOp.andi x v reducesTo_S512x144_S_d0_1 h_S_) main_v16 main_c_5
  let main_v18 : IVec S_ 1 := andi main_v13 main_v17
  let main_v19 : FVec F S512x1728 .f32 := Host.absf main_arg4
  let main_cst_6 : FVec F S_ .f32 := constant S_ .f32 0x7F800000#32
  let main_v20 : FVec F S512x1728 .f32 := broadcastInDim S512x1728 ![] bcast_S_S512x1728 main_cst_6
  let main_v21 : IVec S512x1728 1 := cmpf .olt main_v19 main_v20
  let main_c_7 : IVec S_ 1 := constantI S_ 1 1#1
  let main_v22 : IVec S_ 1 := (fun x v => Host.reduce IntOp.andi x v reducesTo_S512x1728_S_d0_1 h_S_) main_v21 main_c_7
  let main_v23 : IVec S_ 1 := andi main_v18 main_v22
  let main_v24 : FVec F S512x20736 .f32 := Host.absf main_arg5
  let main_cst_8 : FVec F S_ .f32 := constant S_ .f32 0x7F800000#32
  let main_v25 : FVec F S512x20736 .f32 := broadcastInDim S512x20736 ![] bcast_S_S512x20736 main_cst_8
  let main_v26 : IVec S512x20736 1 := cmpf .olt main_v24 main_v25
  let main_c_9 : IVec S_ 1 := constantI S_ 1 1#1
  let main_v27 : IVec S_ 1 := (fun x v => Host.reduce IntOp.andi x v reducesTo_S512x20736_S_d0_1 h_S_) main_v26 main_c_9
  let main_v28 : IVec S_ 1 := andi main_v23 main_v27
  main_v28

def fn {F : FTy → Type} [FloatOps F] (main_arg0 : FVec F S8192x12 .f32) (main_arg1 : FVec F S512x1 .f32) (main_arg2 : FVec F S512x12 .f32) (main_arg3 : FVec F S512x144 .f32) (main_arg4 : FVec F S512x1728 .f32) (main_arg5 : FVec F S512x20736 .f32) : IVec S_ 1 :=
  let main_v0 : FVec F S8192x12 .f32 := Host.absf main_arg0
  let main_cst : FVec F S_ .f32 := constant S_ .f32 0x7F800000#32
  let main_v1 : FVec F S8192x12 .f32 := broadcastInDim S8192x12 ![] bcast_S_S8192x12 main_cst
  let main_v2 : IVec S8192x12 1 := cmpf .olt main_v0 main_v1
  let main_c : IVec S_ 1 := constantI S_ 1 1#1
  let main_v3 : IVec S_ 1 := (fun x v => Host.reduce IntOp.andi x v reducesTo_S8192x12_S_d0_1 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S512x12 .f32 := Host.absf main_arg2
  let main_cst_2 : FVec F S_ .f32 := constant S_ .f32 0x7F800000#32
  let main_v10 : FVec F S512x12 .f32 := broadcastInDim S512x12 ![] bcast_S_S512x12 main_cst_2
  let main_v11 : IVec S512x12 1 := cmpf .olt main_v9 main_v10
  let main_c_3 : IVec S_ 1 := constantI S_ 1 1#1
  let main_v12 : IVec S_ 1 := (fun x v => Host.reduce IntOp.andi x v reducesTo_S512x12_S_d0_1 h_S_) main_v11 main_c_3
  let main_v13 : IVec S_ 1 := andi main_v8 main_v12
  let main_v14 : FVec F S512x144 .f32 := Host.absf main_arg3
  let main_cst_4 : FVec F S_ .f32 := constant S_ .f32 0x7F800000#32
  let main_v15 : FVec F S512x144 .f32 := broadcastInDim S512x144 ![] bcast_S_S512x144 main_cst_4
  let main_v16 : IVec S512x144 1 := cmpf .olt main_v14 main_v15
  fn_part1 (F := F) main_arg4 main_arg5 main_v13 main_v16
-- ==== Kernel.lean ====
abbrev S8192x12 : Shape := ⟨2, ![8192, 12]⟩
abbrev S512x1 : Shape := ⟨2, ![512, 1]⟩
abbrev S512x12 : Shape := ⟨2, ![512, 12]⟩
abbrev S512x144 : Shape := ⟨2, ![512, 144]⟩
abbrev S512x1728 : Shape := ⟨2, ![512, 1728]⟩
abbrev S512x20736 : Shape := ⟨2, ![512, 20736]⟩
abbrev S1x512 : Shape := ⟨2, ![1, 512]⟩
abbrev S12x512 : Shape := ⟨2, ![12, 512]⟩
abbrev S144x512 : Shape := ⟨2, ![144, 512]⟩
abbrev S1728x512 : Shape := ⟨2, ![1728, 512]⟩
abbrev S20736x512 : Shape := ⟨2, ![20736, 512]⟩
abbrev S8192x512 : Shape := ⟨2, ![8192, 512]⟩
abbrev S256x12 : Shape := ⟨2, ![256, 12]⟩
abbrev S256x512 : Shape := ⟨2, ![256, 512]⟩
abbrev S256x1 : Shape := ⟨2, ![256, 1]⟩
abbrev S256x144 : Shape := ⟨2, ![256, 144]⟩
abbrev S256x1728 : Shape := ⟨2, ![256, 1728]⟩

abbrev nBuf : Space → Nat
  | .hbm => 16
  | .vmem => 9
  | .smem => 0
  | _ => 0

abbrev bufTy : (tb : Table) → Fin (tcTables nBuf tb) → BufTy
  | .hbm, ⟨0, _⟩ => ⟨S8192x12, .f32⟩
  | .hbm, ⟨1, _⟩ => ⟨S512x1, .f32⟩
  | .hbm, ⟨2, _⟩ => ⟨S512x12, .f32⟩
  | .hbm, ⟨3, _⟩ => ⟨S512x144, .f32⟩
  | .hbm, ⟨4, _⟩ => ⟨S512x1728, .f32⟩
  | .hbm, ⟨5, _⟩ => ⟨S512x20736, .f32⟩
  | .hbm, ⟨6, _⟩ => ⟨S1x512, .f32⟩
  | .hbm, ⟨7, _⟩ => ⟨S12x512, .f32⟩
  | .hbm, ⟨8, _⟩ => ⟨S12x512, .bf16⟩
  | .hbm, ⟨9, _⟩ => ⟨S144x512, .f32⟩
  | .hbm, ⟨10, _⟩ => ⟨S144x512, .bf16⟩
  | .hbm, ⟨11, _⟩ => ⟨S1728x512, .f32⟩
  | .hbm, ⟨12, _⟩ => ⟨S1728x512, .bf16⟩
  | .hbm, ⟨13, _⟩ => ⟨S20736x512, .f32⟩
  | .hbm, ⟨14, _⟩ => ⟨S20736x512, .bf16⟩
  | .hbm, ⟨15, _⟩ => ⟨S8192x512, .f32⟩
  | .local _ .vmem, ⟨0, _⟩ => ⟨S256x12, .f32⟩
  | .local _ .vmem, ⟨1, _⟩ => ⟨S256x12, .f32⟩
  | .local _ .vmem, ⟨2, _⟩ => ⟨S1x512, .f32⟩
  | .local _ .vmem, ⟨3, _⟩ => ⟨S12x512, .bf16⟩
  | .local _ .vmem, ⟨4, _⟩ => ⟨S144x512, .bf16⟩
  | .local _ .vmem, ⟨5, _⟩ => ⟨S1728x512, .bf16⟩
  | .local _ .vmem, ⟨6, _⟩ => ⟨S20736x512, .bf16⟩
  | .local _ .vmem, ⟨7, _⟩ => ⟨S256x512, .f32⟩
  | .local _ .vmem, ⟨8, _⟩ => ⟨S256x512, .f32⟩
  | _, _ => ⟨S8192x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1728x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20736x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x1_S1x512_1_0 : S512x1.Transposes [1, 0] S1x512
  transposes_S512x12_S12x512_1_0 : S512x12.Transposes [1, 0] S12x512
  bitsLt_bf16_f32 : FTy.bits .bf16 < FTy.bits .f32
  transposes_S512x144_S144x512_1_0 : S512x144.Transposes [1, 0] S144x512
  transposes_S512x1728_S1728x512_1_0 : S512x1728.Transposes [1, 0] S1728x512
  transposes_S512x20736_S20736x512_1_0 : S512x20736.Transposes [1, 0] S20736x512
  inb_S256x12_S256x12_0_0 : ∀ a, (![0, 0] : Fin 2 → Nat) a + S256x12.size a ≤ S256x12.size a
  h_S256x12 : 0 < S256x12.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S12x512_S12x512_0_0 : ∀ a, (![0, 0] : Fin 2 → Nat) a + S12x512.size a ≤ S12x512.size a
  h_S12x512 : 0 < S12x512.numel
  shapeCasts_S12x512_S12x512 : S12x512.ShapeCasts S12x512
  slices_S256x12_o0_0_S256x1 : S256x12.Slices ![0, 0] S256x1
  broadcasts_S256x1_S256x12 : S256x1.Broadcasts S256x12
  slices_S256x12_o0_1_S256x1 : S256x12.Slices ![0, 1] S256x1
  slices_S256x12_o0_2_S256x1 : S256x12.Slices ![0, 2] S256x1
  slices_S256x12_o0_3_S256x1 : S256x12.Slices ![0, 3] S256x1
  slices_S256x12_o0_4_S256x1 : S256x12.Slices ![0, 4] S256x1
  slices_S256x12_o0_5_S256x1 : S256x12.Slices ![0, 5] S256x1
  slices_S256x12_o0_6_S256x1 : S256x12.Slices ![0, 6] S256x1
  slices_S256x12_o0_7_S256x1 : S256x12.Slices ![0, 7] S256x1
  slices_S256x12_o0_8_S256x1 : S256x12.Slices ![0, 8] S256x1
  slices_S256x12_o0_9_S256x1 : S256x12.Slices ![0, 9] S256x1
  slices_S256x12_o0_10_S256x1 : S256x12.Slices ![0, 10] S256x1
  slices_S256x12_o0_11_S256x1 : S256x12.Slices ![0, 11] S256x1
  concatenates_S256x12_S256x12_S256x12_S256x12_S256x12_S256x12_S256x12_S256x12_S256x12_S256x12_S256x12_S256x12_S256x144_d1 : Shape.Concatenates [S256x12, S256x12, S256x12, S256x12, S256x12, S256x12, S256x12, S256x12, S256x12, S256x12, S256x12, S256x12] S256x144 1
  inb_S144x512_S144x512_0_0 : ∀ a, (![0, 0] : Fin 2 → Nat) a + S144x512.size a ≤ S144x512.size a
  h_S144x512 : 0 < S144x512.numel
  shapeCasts_S144x512_S144x512 : S144x512.ShapeCasts S144x512
  broadcasts_S256x1_S256x144 : S256x1.Broadcasts S256x144
  concatenates_S256x144_S256x144_S256x144_S256x144_S256x144_S256x144_S256x144_S256x144_S256x144_S256x144_S256x144_S256x144_S256x1728_d1 : Shape.Concatenates [S256x144, S256x144, S256x144, S256x144, S256x144, S256x144, S256x144, S256x144, S256x144, S256x144, S256x144, S256x144] S256x1728 1
  inb_S1728x512_S1728x512_0_0 : ∀ a, (![0, 0] : Fin 2 → Nat) a + S1728x512.size a ≤ S1728x512.size a
  h_S1728x512 : 0 < S1728x512.numel
  shapeCasts_S1728x512_S1728x512 : S1728x512.ShapeCasts S1728x512
  broadcasts_S256x1_S256x1728 : S256x1.Broadcasts S256x1728
  inb_S20736x512_S1728x512_0_0 : ∀ a, (![0, 0] : Fin 2 → Nat) a + S1728x512.size a ≤ S20736x512.size a
  inb_S20736x512_S1728x512_1728_0 : ∀ a, (![1728, 0] : Fin 2 → Nat) a + S1728x512.size a ≤ S20736x512.size a
  inb_S20736x512_S1728x512_3456_0 : ∀ a, (![3456, 0] : Fin 2 → Nat) a + S1728x512.size a ≤ S20736x512.size a
  inb_S20736x512_S1728x512_5184_0 : ∀ a, (![5184, 0] : Fin 2 → Nat) a + S1728x512.size a ≤ S20736x512.size a
  inb_S20736x512_S1728x512_6912_0 : ∀ a, (![6912, 0] : Fin 2 → Nat) a + S1728x512.size a ≤ S20736x512.size a
  inb_S20736x512_S1728x512_8640_0 : ∀ a, (![8640, 0] : Fin 2 → Nat) a + S1728x512.size a ≤ S20736x512.size a
  inb_S20736x512_S1728x512_10368_0 : ∀ a, (![10368, 0] : Fin 2 → Nat) a + S1728x512.size a ≤ S20736x512.size a
  inb_S20736x512_S1728x512_12096_0 : ∀ a, (![12096, 0] : Fin 2 → Nat) a + S1728x512.size a ≤ S20736x512.size a
  inb_S20736x512_S1728x512_13824_0 : ∀ a, (![13824, 0] : Fin 2 → Nat) a + S1728x512.size a ≤ S20736x512.size a
  inb_S20736x512_S1728x512_15552_0 : ∀ a, (![15552, 0] : Fin 2 → Nat) a + S1728x512.size a ≤ S20736x512.size a
  inb_S20736x512_S1728x512_17280_0 : ∀ a, (![17280, 0] : Fin 2 → Nat) a + S1728x512.size a ≤ S20736x512.size a
  inb_S20736x512_S1728x512_19008_0 : ∀ a, (![19008, 0] : Fin 2 → Nat) a + S1728x512.size a ≤ S20736x512.size a
  inb_S256x512_S256x512_0_0 : ∀ a, (![0, 0] : Fin 2 → Nat) a + S256x512.size a ≤ S256x512.size a
  h_S256x512 : 0 < S256x512.numel
  dot_S256x12_S12x512_S256x512_1_0_0_1_n_n_wf : DotDims.WF S256x12 S12x512 S256x512 [1] [0] [0] [1] [] []
  dot_S256x144_S144x512_S256x512_1_0_0_1_n_n_wf : DotDims.WF S256x144 S144x512 S256x512 [1] [0] [0] [1] [] []
  dot_S256x1728_S1728x512_S256x512_1_0_0_1_n_n_wf : DotDims.WF S256x1728 S1728x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x12.size a ≤ S8192x12.size a
  hwx0_0 : ∀ i : grid0.Coords, EltTy.bits .f32 = 32 ∨ (Rect.block (s := S8192x12) S256x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x512.size a ≤ S12x512.size a
  hwx0_2 : ∀ i : grid0.Coords, EltTy.bits .bf16 = 32 ∨ (Rect.block (s := S12x512) S12x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x512.size a ≤ S144x512.size a
  hwx0_3 : ∀ i : grid0.Coords, EltTy.bits .bf16 = 32 ∨ (Rect.block (s := S144x512) S144x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1728x512.size a ≤ S1728x512.size a
  hwx0_4 : ∀ i : grid0.Coords, EltTy.bits .bf16 = 32 ∨ (Rect.block (s := S1728x512) S1728x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20736x512.size a ≤ S20736x512.size a
  hwx0_5 : ∀ i : grid0.Coords, EltTy.bits .bf16 = 32 ∨ (Rect.block (s := S20736x512) S20736x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x512.size a
  hwx0_6 : ∀ i : grid0.Coords, EltTy.bits .f32 = 32 ∨ (Rect.block (s := S8192x512) S256x512.size (cc0_transform_6 i) (hinb0_6 i)).WholeWords (EltTy.packing .f32)

variable [Facts₀]

def dot_S256x12_S12x512_S256x512_1_0_0_1_n_n : DotDims S256x12 S12x512 S256x512 where
  lhsContracting := [1]
  rhsContracting := [0]
  lhsNonContracting := [0]
  rhsNonContracting := [1]
  lhsBatch := []
  rhsBatch := []
  wf := dot_S256x12_S12x512_S256x512_1_0_0_1_n_n_wf
def dot_S256x144_S144x512_S256x512_1_0_0_1_n_n : DotDims S256x144 S144x512 S256x512 where
  lhsContracting := [1]
  rhsContracting := [0]
  lhsNonContracting := [0]
  rhsNonContracting := [1]
  lhsBatch := []
  rhsBatch := []
  wf := dot_S256x144_S144x512_S256x512_1_0_0_1_n_n_wf
def dot_S256x1728_S1728x512_S256x512_1_0_0_1_n_n : DotDims S256x1728 S1728x512 S256x512 where
  lhsContracting := [1]
  rhsContracting := [0]
  lhsNonContracting := [0]
  rhsNonContracting := [1]
  lhsBatch := []
  rhsBatch := []
  wf := dot_S256x1728_S1728x512_S256x512_1_0_0_1_n_n_wf

abbrev win0_0 : Pipeline.Window sig grid0 :=
  Pipeline.Window.ofSpec (Memref.whole main_arg0) S256x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S144x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1728x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S20736x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x12 : Shape := ⟨2, ![8192, 12]⟩
abbrev S512x1 : Shape := ⟨2, ![512, 1]⟩
abbrev S512x12 : Shape := ⟨2, ![512, 12]⟩
abbrev S512x144 : Shape := ⟨2, ![512, 144]⟩
abbrev S512x1728 : Shape := ⟨2, ![512, 1728]⟩
abbrev S512x20736 : Shape := ⟨2, ![512, 20736]⟩
abbrev S12x8192 : Shape := ⟨2, ![12, 8192]⟩
abbrev S_ : Shape := ⟨0, ![]⟩
abbrev S1x8192 : Shape := ⟨2, ![1, 8192]⟩
abbrev S512x8192 : Shape := ⟨2, ![512, 8192]⟩
abbrev S12x1x8192 : Shape := ⟨3, ![12, 1, 8192]⟩
abbrev S1x12x8192 : Shape := ⟨3, ![1, 12, 8192]⟩
abbrev S12x12x8192 : Shape := ⟨3, ![12, 12, 8192]⟩
abbrev S144x8192 : Shape := ⟨2, ![144, 8192]⟩
abbrev S1x144x8192 : Shape := ⟨3, ![1, 144, 8192]⟩
abbrev S12x144x8192 : Shape := ⟨3, ![12, 144, 8192]⟩
abbrev S1728x8192 : Shape := ⟨2, ![1728, 8192]⟩
abbrev S1x1728x8192 : Shape := ⟨3, ![1, 1728, 8192]⟩
abbrev S12x1728x8192 : Shape := ⟨3, ![12, 1728, 8192]⟩
abbrev S20736x8192 : Shape := ⟨2, ![20736, 8192]⟩
abbrev S8192x512 : Shape := ⟨2, ![8192, 512]⟩

abbrev nBuf : Space → Nat
  | .hbm => 37
  | .vmem => 0
  | .smem => 0
  | _ => 0

abbrev bufTy : (tb : Table) → Fin (tcTables nBuf tb) → BufTy
  | .hbm, ⟨0, _⟩ => ⟨S8192x12, .f32⟩
  | .hbm, ⟨1, _⟩ => ⟨S512x1, .f32⟩
  | .hbm, ⟨2, _⟩ => ⟨S512x12, .f32⟩
  | .hbm, ⟨3, _⟩ => ⟨S512x144, .f32⟩
  | .hbm, ⟨4, _⟩ => ⟨S512x1728, .f32⟩
  | .hbm, ⟨5, _⟩ => ⟨S512x20736, .f32⟩
  | .hbm, ⟨6, _⟩ => ⟨S12x8192, .f32⟩
  | .hbm, ⟨7, _⟩ => ⟨S_, .f32⟩
  | .hbm, ⟨8, _⟩ => ⟨S1x8192, .f32⟩
  | .hbm, ⟨9, _⟩ => ⟨S512x8192, .f32⟩
  | .hbm, ⟨10, _⟩ => ⟨S512x8192, .f32⟩
  | .hbm, ⟨11, _⟩ => ⟨S512x8192, .f32⟩
  | .hbm, ⟨12, _⟩ => ⟨S12x1x8192, .f32⟩
  | .hbm, ⟨13, _⟩ => ⟨S1x12x8192, .f32⟩
  | .hbm, ⟨14, _⟩ => ⟨S12x12x8192, .f32⟩
  | .hbm, ⟨15, _⟩ => ⟨S12x12x8192, .f32⟩
  | .hbm, ⟨16, _⟩ => ⟨S12x12x8192, .f32⟩
  | .hbm, ⟨17, _⟩ => ⟨S144x8192, .f32⟩
  | .hbm, ⟨18, _⟩ => ⟨S512x8192, .f32⟩
  | .hbm, ⟨19, _⟩ => ⟨S512x8192, .f32⟩
  | .hbm, ⟨20, _⟩ => ⟨S12x1x8192, .f32⟩
  | .hbm, ⟨21, _⟩ => ⟨S1x144x8192, .f32⟩
  | .hbm, ⟨22, _⟩ => ⟨S12x144x8192, .f32⟩
  | .hbm, ⟨23, _⟩ => ⟨S12x144x8192, .f32⟩
  | .hbm, ⟨24, _⟩ => ⟨S12x144x8192, .f32⟩
  | .hbm, ⟨25, _⟩ => ⟨S1728x8192, .f32⟩
  | .hbm, ⟨26, _⟩ => ⟨S512x8192, .f32⟩
  | .hbm, ⟨27, _⟩ => ⟨S512x8192, .f32⟩
  | .hbm, ⟨28, _⟩ => ⟨S12x1x8192, .f32⟩
  | .hbm, ⟨29, _⟩ => ⟨S1x1728x8192, .f32⟩
  | .hbm, ⟨30, _⟩ => ⟨S12x1728x8192, .f32⟩
  | .hbm, ⟨31, _⟩ => ⟨S12x1728x8192, .f32⟩
  | .hbm, ⟨32, _⟩ => ⟨S12x1728x8192, .f32⟩
  | .hbm, ⟨33, _⟩ => ⟨S20736x8192, .f32⟩
  | .hbm, ⟨34, _⟩ => ⟨S512x8192, .f32⟩
  | .hbm, ⟨35, _⟩ => ⟨S512x8192, .f32⟩
  | .hbm, ⟨36, _⟩ => ⟨S8192x512, .f32⟩
  | _, _ => ⟨S8192x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  transposes_S8192x12_S12x8192_1_0 : S8192x12.Transposes [1, 0] S12x8192
  bcast_S_S1x8192 : S_.BroadcastsInDim S1x8192 (![] : Fin 0 → Fin S1x8192.rank)
  bcast_S12x8192_S12x1x8192_0_2 : S12x8192.BroadcastsInDim S12x1x8192 (![0, 2] : Fin 2 → Fin S12x1x8192.rank)
  bcast_S12x8192_S1x12x8192_1_2 : S12x8192.BroadcastsInDim S1x12x8192 (![1, 2] : Fin 2 → Fin S1x12x8192.rank)
  bcast_S12x1x8192_S12x12x8192_0_1_2 : S12x1x8192.BroadcastsInDim S12x12x8192 (![0, 1, 2] : Fin 3 → Fin S12x12x8192.rank)
  bcast_S1x12x8192_S12x12x8192_0_1_2 : S1x12x8192.BroadcastsInDim S12x12x8192 (![0, 1, 2] : Fin 3 → Fin S12x12x8192.rank)
  shapeCasts_S12x12x8192_S144x8192 : S12x12x8192.ShapeCasts S144x8192
  bcast_S144x8192_S1x144x8192_1_2 : S144x8192.BroadcastsInDim S1x144x8192 (![1, 2] : Fin 2 → Fin S1x144x8192.rank)
  bcast_S12x1x8192_S12x144x8192_0_1_2 : S12x1x8192.BroadcastsInDim S12x144x8192 (![0, 1, 2] : Fin 3 → Fin S12x144x8192.rank)
  bcast_S1x144x8192_S12x144x8192_0_1_2 : S1x144x8192.BroadcastsInDim S12x144x8192 (![0, 1, 2] : Fin 3 → Fin S12x144x8192.rank)
  shapeCasts_S12x144x8192_S1728x8192 : S12x144x8192.ShapeCasts S1728x8192
  bcast_S1728x8192_S1x1728x8192_1_2 : S1728x8192.BroadcastsInDim S1x1728x8192 (![1, 2] : Fin 2 → Fin S1x1728x8192.rank)
  bcast_S12x1x8192_S12x1728x8192_0_1_2 : S12x1x8192.BroadcastsInDim S12x1728x8192 (![0, 1, 2] : Fin 3 → Fin S12x1728x8192.rank)
  bcast_S1x1728x8192_S12x1728x8192_0_1_2 : S1x1728x8192.BroadcastsInDim S12x1728x8192 (![0, 1, 2] : Fin 3 → Fin S12x1728x8192.rank)
  shapeCasts_S12x1728x8192_S20736x8192 : S12x1728x8192.ShapeCasts S20736x8192
  transposes_S512x8192_S8192x512_1_0 : S512x8192.Transposes [1, 0] S8192x512
  dot_S512x1_S1x8192_S512x8192_1_0_0_1_n_n_wf : DotDims.WF S512x1 S1x8192 S512x8192 [1] [0] [0] [1] [] []
  dot_S512x12_S12x8192_S512x8192_1_0_0_1_n_n_wf : DotDims.WF S512x12 S12x8192 S512x8192 [1] [0] [0] [1] [] []
  dot_S512x144_S144x8192_S512x8192_1_0_0_1_n_n_wf : DotDims.WF S512x144 S144x8192 S512x8192 [1] [0] [0] [1] [] []
  dot_S512x1728_S1728x8192_S512x8192_1_0_0_1_n_n_wf : DotDims.WF S512x1728 S1728x8192 S512x8192 [1] [0] [0] [1] [] []
  dot_S512x20736_S20736x8192_S512x8192_1_0_0_1_n_n_wf : DotDims.WF S512x20736 S20736x8192 S512x8192 [1] [0] [0] [1] [] []

variable [Facts₀]

def dot_S512x1_S1x8192_S512x8192_1_0_0_1_n_n : DotDims S512x1 S1x8192 S512x8192 where
  lhsContracting := [1]
  rhsContracting := [0]
  lhsNonContracting := [0]
  rhsNonContracting := [1]
  lhsBatch := []
  rhsBatch := []
  wf := dot_S512x1_S1x8192_S512x8192_1_0_0_1_n_n_wf
def dot_S512x12_S12x8192_S512x8192_1_0_0_1_n_n : DotDims S512x12 S12x8192 S512x8192 where
  lhsContracting := [1]
  rhsContracting := [0]
  lhsNonContracting := [0]
  rhsNonContracting := [1]
  lhsBatch := []
  rhsBatch := []
  wf := dot_S512x12_S12x8192_S512x8192_1_0_0_1_n_n_wf
def dot_S512x144_S144x8192_S512x8192_1_0_0_1_n_n : DotDims S512x144 S144x8192 S512x8192 where
  lhsContracting := [1]
  rhsContracting := [0]
  lhsNonContracting := [0]
  rhsNonContracting := [1]
  lhsBatch := []
  rhsBatch := []
  wf := dot_S512x144_S144x8192_S512x8192_1_0_0_1_n_n_wf
def dot_S512x1728_S1728x8192_S512x8192_1_0_0_1_n_n : DotDims S512x1728 S1728x8192 S512x8192 where
  lhsContracting := [1]
  rhsContracting := [0]
  lhsNonContracting := [0]
  rhsNonContracting := [1]
  lhsBatch := []
  rhsBatch := []
  wf := dot_S512x1728_S1728x8192_S512x8192_1_0_0_1_n_n_wf
def dot_S512x20736_S20736x8192_S512x8192_1_0_0_1_n_n : DotDims S512x20736 S20736x8192 S512x8192 where
  lhsContracting := [1]
  rhsContracting := [0]
  lhsNonContracting := [0]
  rhsNonContracting := [1]
  lhsBatch := []
  rhsBatch := []
  wf := dot_S512x20736_S20736x8192_S512x8192_1_0_0_1_n_n_wf

class Facts : Prop extends Facts₀ where

variable [Facts]
-- ==== Proof.Poly.lean ====
/-
  The polynomial both programs compute, on the extended reals.

  For one batch row `x : Fin 12 → EReal` the Khatri–Rao powers are
    `kr2 x (12 i + j) = x i · x j`,  `kr3 x (144 i + c) = x i · kr2 x c`,  `kr4 x (1728 i + c) = x i · kr3 x c`,
  and one output entry is
    `a + ∑ x i · w₁ i + ∑ kr2 x c · w₂ c + ∑ kr3 x c · w₃ c + ∑ kr4 x c · w₄ c`.
  One side adds the degree-four term as ONE sum over 20736 positions with the weight on the left of each product; the
  other adds it as twelve sums over 1728 positions, one after the other, with the weight on the right.  The two are
  equal because `+` on the extended reals is commutative and associative and `·` is commutative: no distributivity
  and no cancellation is used, so nothing here asks for finite entries.
-/
import Idealize.ShloMosaic.PureOps.Ideal

noncomputable section

namespace Cert.PiNet

open BigOperators

/-! ## Sums over twelve terms, and over twelve blocks -/

section Sums

variable {M : Type*} [AddCommMonoid M]

theorem sum_nine (f : Fin 9 → M) : ∑ i, f i = f 0 + f 1 + f 2 + f 3 + f 4 + f 5 + f 6 + f 7 + f 8 := by
  rw [Fin.sum_univ_castSucc, Fin.sum_univ_eight]; rfl

theorem sum_ten (f : Fin 10 → M) : ∑ i, f i = f 0 + f 1 + f 2 + f 3 + f 4 + f 5 + f 6 + f 7 + f 8 + f 9 := by
  rw [Fin.sum_univ_castSucc, sum_nine]; rfl

theorem sum_eleven (f : Fin 11 → M) : ∑ i, f i = f 0 + f 1 + f 2 + f 3 + f 4 + f 5 + f 6 + f 7 + f 8 + f 9 + f 10 := by
  rw [Fin.sum_univ_castSucc, sum_ten]; rfl

theorem sum_twelve (f : Fin 12 → M) :
    ∑ i, f i = f 0 + f 1 + f 2 + f 3 + f 4 + f 5 + f 6 + f 7 + f 8 + f 9 + f 10 + f 11 := by
  rw [Fin.sum_univ_castSucc, sum_eleven]; rfl

/-- Twelve terms added one after the other onto `a` are `a` plus their sum. -/
theorem add_twelve (a : M) (s : Fin 12 → M) :
    a + s 0 + s 1 + s 2 + s 3 + s 4 + s 5 + s 6 + s 7 + s 8 + s 9 + s 10 + s 11 = a + ∑ i, s i := by
  rw [sum_twelve]; simp only [add_assoc]

/-- Position `1728 i + c` of the degree-four axis: entry `c` of block `i`. -/
def at4 (i : Fin 12) (c : Fin 1728) : Fin 20736 :=
  ⟨c.val + 1728 * i.val, by have := i.isLt; have := c.isLt; omega⟩

/-- A sum over the 20736 positions is the sum over the twelve blocks of the sums over each block's 1728 positions. -/
theorem sum_blocks (f : Fin 20736 → M) : ∑ k, f k = ∑ i : Fin 12, ∑ c : Fin 1728, f (at4 i c) := by
  have e : ∀ p : Fin 12 × Fin 1728, (finProdFinEquiv p : Fin 20736) = at4 p.1 p.2 := fun p => Fin.ext rfl
  rw [← Equiv.sum_comp (finProdFinEquiv : Fin 12 × Fin 1728 ≃ Fin 20736) f, Fintype.sum_prod_type]
  simp only [e]

/-- The factors of every product of a sum swapped. -/
theorem sum_mul_comm {ι : Type*} [Fintype ι] {R : Type*} [CommMonoid R] [AddCommMonoid R] (f g : ι → R) :
    ∑ c, f c * g c = ∑ c, g c * f c :=
  Finset.sum_congr rfl fun c _ => mul_comm _ _

end Sums

/-! ## The Khatri–Rao powers of a row -/

/-- Degree two: position `12 i + j` holds `x i · x j`. -/
def kr2 (x : Fin 12 → EReal) (c : Fin 144) : EReal :=
  x ⟨c.val / 12, by have := c.isLt; omega⟩ * x ⟨c.val % 12, Nat.mod_lt _ (by norm_num)⟩

/-- Degree three: position `144 i + c` holds `x i · kr2 x c`. -/
def kr3 (x : Fin 12 → EReal) (c : Fin 1728) : EReal :=
  x ⟨c.val / 144, by have := c.isLt; omega⟩ * kr2 x ⟨c.val % 144, Nat.mod_lt _ (by norm_num)⟩

/-- Degree four: position `1728 i + c` holds `x i · kr3 x c`. -/
def kr4 (x : Fin 12 → EReal) (c : Fin 20736) : EReal :=
  x ⟨c.val / 1728, by have := c.isLt; omega⟩ * kr3 x ⟨c.val % 1728, Nat.mod_lt _ (by norm_num)⟩

theorem kr2_eq (x : Fin 12 → EReal) (k : Fin 144) (i j : Fin 12) (hi : k.val / 12 = i.val) (hj : k.val % 12 = j.val) :
    kr2 x k = x i * x j := by
  unfold kr2
  exact congrArg₂ (· * ·) (congrArg x (Fin.ext hi)) (congrArg x (Fin.ext hj))

theorem kr3_eq (x : Fin 12 → EReal) (k : Fin 1728) (i : Fin 12) (c : Fin 144) (hi : k.val / 144 = i.val)
    (hc : k.val % 144 = c.val) : kr3 x k = x i * kr2 x c := by
  unfold kr3
  exact congrArg₂ (· * ·) (congrArg x (Fin.ext hi)) (congrArg (kr2 x) (Fin.ext hc))

theorem kr4_eq (x : Fin 12 → EReal) (k : Fin 20736) (i : Fin 12) (c : Fin 1728) (hi : k.val / 1728 = i.val)
    (hc : k.val % 1728 = c.val) : kr4 x k = x i * kr3 x c := by
  unfold kr4
  exact congrArg₂ (· * ·) (congrArg x (Fin.ext hi)) (congrArg (kr3 x) (Fin.ext hc))

/-- Entry `c` of block `i` of the degree-four power is `x i · kr3 x c`. -/
theorem kr4_at4 (x : Fin 12 → EReal) (i : Fin 12) (c : Fin 1728) : kr4 x (at4 i c) = x i * kr3 x c :=
  kr4_eq x (at4 i c) i c (by have := c.isLt; show (c.val + 1728 * i.val) / 1728 = i.val; omega)
    (by have := c.isLt; show (c.val + 1728 * i.val) % 1728 = c.val; omega)

/-! ## The polynomial, and its two spellings -/

/-- One output entry: the bias, then the four weighted powers of the row. -/
def poly (x : Fin 12 → EReal) (a : EReal) (w1 : Fin 12 → EReal) (w2 : Fin 144 → EReal) (w3 : Fin 1728 → EReal)
    (w4 : Fin 20736 → EReal) : EReal :=
  a + ∑ i, x i * w1 i + ∑ c, kr2 x c * w2 c + ∑ c, kr3 x c * w3 c + ∑ c, kr4 x c * w4 c

/-- The degree-four term added block by block, twelve partial products one after the other. -/
theorem poly_of_blocks (x : Fin 12 → EReal) (a : EReal) (w1 : Fin 12 → EReal) (w2 : Fin 144 → EReal)
    (w3 : Fin 1728 → EReal) (w4 : Fin 20736 → EReal) :
    a + ∑ i, x i * w1 i + ∑ c, kr2 x c * w2 c + ∑ c, kr3 x c * w3 c
        + ∑ c, (x 0 * kr3 x c) * w4 (at4 0 c) + ∑ c, (x 1 * kr3 x c) * w4 (at4 1 c)
        + ∑ c, (x 2 * kr3 x c) * w4 (at4 2 c) + ∑ c, (x 3 * kr3 x c) * w4 (at4 3 c)
        + ∑ c, (x 4 * kr3 x c) * w4 (at4 4 c) + ∑ c, (x 5 * kr3 x c) * w4 (at4 5 c)
        + ∑ c, (x 6 * kr3 x c) * w4 (at4 6 c) + ∑ c, (x 7 * kr3 x c) * w4 (at4 7 c)
        + ∑ c, (x 8 * kr3 x c) * w4 (at4 8 c) + ∑ c, (x 9 * kr3 x c) * w4 (at4 9 c)
        + ∑ c, (x 10 * kr3 x c) * w4 (at4 10 c) + ∑ c, (x 11 * kr3 x c) * w4 (at4 11 c)
      = poly x a w1 w2 w3 w4 := by
  unfold poly
  rw [add_twelve (a + ∑ i, x i * w1 i + ∑ c, kr2 x c * w2 c + ∑ c, kr3 x c * w3 c)
    (fun i => ∑ c, (x i * kr3 x c) * w4 (at4 i c)), sum_blocks (fun k => kr4 x k * w4 k)]
  simp only [kr4_at4]

/-- The weights on the left of every product, and the bias as a one-term product with one. -/
theorem poly_of_left (x : Fin 12 → EReal) (a : Fin 1 → EReal) (w1 : Fin 12 → EReal) (w2 : Fin 144 → EReal)
    (w3 : Fin 1728 → EReal) (w4 : Fin 20736 → EReal) :
    ∑ k : Fin 1, a k * 1 + ∑ i, w1 i * x i + ∑ c, w2 c * kr2 x c + ∑ c, w3 c * kr3 x c + ∑ c, w4 c * kr4 x c
      = poly x (a 0) w1 w2 w3 w4 := by
  unfold poly
  rw [Fin.sum_univ_one, mul_one, sum_mul_comm w1 x, sum_mul_comm w2 (kr2 x), sum_mul_comm w3 (kr3 x),
    sum_mul_comm w4 (kr4 x)]

end Cert.PiNet

end
-- ==== Proof.LibJoinTwelve.lean ====
/-
  Twelve arrays of one shape joined side by side, and a band of rows cut out of a matrix, read at an index.

  An `[n, W]` array assembled by joining twelve `[n, w]` arrays along the second axis has at `(p, q)` the
  `(q / w)`-th of them at `(p, q % w)`.  The rows `o, o + 1, …` of an `[N, m]` matrix, loaded as an `[n, m]` array,
  have at `(c, q)` the matrix's entry `(o + c, q)`.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

/-- Twelve `[n, w]` arrays joined along the second axis: entry `(p, q)` of the result is array `q / w` at `(p, q % w)`. -/
theorem concat12_apply {α : Type} {n w W : ℕ} (f : Fin 12 → (⟨2, ![n, w]⟩ : Shape).Idx → α)
    (h : Shape.Concatenates (([⟨⟨2, ![n, w]⟩, f 0⟩, ⟨⟨2, ![n, w]⟩, f 1⟩, ⟨⟨2, ![n, w]⟩, f 2⟩, ⟨⟨2, ![n, w]⟩, f 3⟩, ⟨⟨2, ![n, w]⟩, f 4⟩,
      ⟨⟨2, ![n, w]⟩, f 5⟩, ⟨⟨2, ![n, w]⟩, f 6⟩, ⟨⟨2, ![n, w]⟩, f 7⟩, ⟨⟨2, ![n, w]⟩, f 8⟩, ⟨⟨2, ![n, w]⟩, f 9⟩, ⟨⟨2, ![n, w]⟩, f 10⟩,
      ⟨⟨2, ![n, w]⟩, f 11⟩] : List ((s : Shape) × (s.Idx → α))).map (·.1)) ⟨2, ![n, W]⟩ (1 : Fin 2))
    (p : Fin n) (q : Fin W) (k : Fin 12) (r : Fin w) (hk : q.val / w = k.val) (hr : r.val = q.val % w) :
    concatenate (⟨2, ![n, W]⟩ : Shape) (1 : Fin 2) [⟨⟨2, ![n, w]⟩, f 0⟩, ⟨⟨2, ![n, w]⟩, f 1⟩, ⟨⟨2, ![n, w]⟩, f 2⟩, ⟨⟨2, ![n, w]⟩, f 3⟩,
      ⟨⟨2, ![n, w]⟩, f 4⟩, ⟨⟨2, ![n, w]⟩, f 5⟩, ⟨⟨2, ![n, w]⟩, f 6⟩, ⟨⟨2, ![n, w]⟩, f 7⟩, ⟨⟨2, ![n, w]⟩, f 8⟩, ⟨⟨2, ![n, w]⟩, f 9⟩,
      ⟨⟨2, ![n, w]⟩, f 10⟩, ⟨⟨2, ![n, w]⟩, f 11⟩] h (ix2 p q)
      = f k (ix2 p r) :=
  concatenate_ofFn_apply (t := ⟨2, ![n, W]⟩) (s₁ := ⟨2, ![n, w]⟩) (1 : Fin 2) f h rfl w rfl (ix2 p q) k hk (ix2 p r) hr
    (fun b hb => by
      match b with
      | ⟨0, _⟩ => rfl
      | ⟨1, _⟩ => exact absurd rfl hb)

/-- The rows from `o` of an `[N, m]` matrix loaded as an `[n, m]` array: entry `(c, q)` is the matrix's `(o + c, q)`. -/
theorem ld_rows_apply {Val : EltTy → Type} {e : EltTy} {N n m : ℕ} (o : ℕ)
    (inb : ∀ a, (![o, 0] : Fin 2 → ℕ) a + (![n, m] : Fin 2 → ℕ) a ≤ (⟨2, ![N, m]⟩ : Shape).size a)
    (X : (⟨2, ![N, m]⟩ : Shape).Idx → Val e) (c : Fin n) (q : Fin m) (k : Fin N) (hk : k.val = o + c.val) :
    View.ld X (Rect.unit (s := ⟨2, ![N, m]⟩) ![o, 0] ![n, m] inb) (ix2 c q) = X (ix2 k q) := by
  show X _ = X _
  congr 1
  funext a; apply Fin.ext
  match a with
  | ⟨0, _⟩ => show o + 1 * c.val = k.val; omega
  | ⟨1, _⟩ => show 0 + 1 * q.val = q.val; omega

end Cert.Layout

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.KernelRow.lean ====
/-
  What one body run of the kernel leaves at entry `(p, q)` of its output block, at the ideal values.

  The body holds a `[256, 12]` block `X` of batch rows, the bias as a `[1, 512]` row, and the four weight matrices with
  the output coordinate on the second axis.  It forms the degree-two and degree-three Khatri–Rao powers of every row
  by joining twelve scaled copies side by side (`x i · X`, then `x i · Z₂`), and adds to the broadcast bias the four
  matrix products — the degree-four one as twelve products of `x i · Z₃` with the twelve bands of 1728 rows of the last
  weight matrix, one after the other.  Read at `(p, q)` this is the polynomial `poly` of row `p` of `X` and of column `q`
  of the bias and the weights.
-/
import proofs.«149518_j74904229642683_2_alg».proof.Proof.Gen.KernelIdeal.Frame
import proofs.«149518_j74904229642683_2_alg».proof.Proof.Poly
import proofs.«149518_j74904229642683_2_alg».proof.Proof.LibJoinTwelve
import proofs.«149518_j74904229642683_2_alg».proof.Proof.LibPlainProduct
import proofs.«149518_j74904229642683_2_alg».proof.Proof.LibRowsProduct
import proofs.«149518_j74904229642683_2_alg».proof.Proof.LibBroadcast
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Row

open Idealize.ShloMosaic Idealize.ShloMosaic.ValueIdx
open Cert.KernelIdeal Cert.KernelIdeal.Gen
open Cert.Layout Cert.PiNet Cert.PlainProduct Cert.RowsProduct

/-! ## Columns of the row block -/

/-- Column `k` of a `[256, 12]` block is a block of it. -/
theorem slices12 (k : Fin 12) : S256x12.Slices ![0, k.val] S256x1 :=
  ⟨rfl, fun a => match a with
    | ⟨0, _⟩ => by show 0 + 256 ≤ 256; omega
    | ⟨1, _⟩ => by have := k.isLt; show k.val + 1 ≤ 12; omega⟩

/-- Column `k` of the row block, as a `[256, 1]` array. -/
def colAt (v0 : Vec Ideal S256x12 .f32) (k : Fin 12) : FVec Ideal S256x1 .f32 :=
  extractStridedSlice S256x1 ![0, k.val] v0 (slices12 k)

theorem colAt_apply (v0 : Vec Ideal S256x12 .f32) (k : Fin 12) (p : Fin 256) :
    colAt v0 k (ix2 p (0 : Fin 1)) = v0 (ix2 p k) :=
  slice2_axis1_apply k.val v0 (slices12 k) p (0 : Fin 1) k rfl

/-- The column cut at a literal offset `o` is column `k` for `k = o`. -/
theorem slice_col (o : ℕ) (k : Fin 12) (hk : k.val = o) (v0 : Vec Ideal S256x12 .f32)
    (hs : S256x12.Slices ![0, o] S256x1) (p : Fin 256) :
    extractStridedSlice S256x1 ![0, o] v0 hs (ix2 p (0 : Fin 1)) = v0 (ix2 p k) :=
  slice2_axis1_apply o v0 hs p (0 : Fin 1) k (by rw [hk]; rfl)

/-- A column broadcast across `w` lanes and multiplied into a `[256, w]` array: entry `(p, c)` is the column's entry `p`
    times the array's entry `(p, c)`. -/
theorem scaled_apply {w : ℕ} (col : FVec Ideal S256x1 .f32) (z : FVec Ideal ⟨2, ![256, w]⟩ .f32)
    (hb : S256x1.Broadcasts ⟨2, ![256, w]⟩) (p : Fin 256) (c : Fin w) :
    mulf (broadcastTo ⟨2, ![256, w]⟩ col hb) z (ix2 p c) = col (ix2 p (0 : Fin 1)) * z (ix2 p c) := by
  rw [mulf_apply, broadcastTo_a1_ab_apply]

/-! ## The Khatri–Rao powers of the rows -/

/-- The degree-two power of the block: row `p` is `kr2` of row `p`. -/
theorem pay2_row (v0 : Vec Ideal S256x12 .f32) (p : Fin 256) (c : Fin 144) :
    k0_pay2 (F := Ideal) v0 (ix2 p c) = kr2 (fun i => v0 (ix2 p i)) c := by
  have hlt := c.isLt
  unfold k0_pay2
  refine (concat12_apply (n := 256) (w := 12) (W := 144)
    (fun k : Fin 12 => mulf (broadcastTo S256x12 (colAt v0 k) Facts₀.broadcasts_S256x1_S256x12) v0)
    _ p c ⟨c.val / 12, by omega⟩ ⟨c.val % 12, by omega⟩ rfl rfl).trans ?_
  simp only [scaled_apply, colAt_apply]
  exact (kr2_eq (fun i => v0 (ix2 p i)) c ⟨c.val / 12, by omega⟩ ⟨c.val % 12, by omega⟩ rfl rfl).symm

/-- The degree-three power of the block: row `p` is `kr3` of row `p`. -/
theorem pay5_row (v0 : Vec Ideal S256x12 .f32) (p : Fin 256) (c : Fin 1728) :
    k0_pay5 (F := Ideal) v0 (k0_pay2 v0) (ix2 p c) = kr3 (fun i => v0 (ix2 p i)) c := by
  have hlt := c.isLt
  unfold k0_pay5
  refine (concat12_apply (n := 256) (w := 144) (W := 1728)
    (fun k : Fin 12 => mulf (broadcastTo S256x144 (colAt v0 k) Facts₀.broadcasts_S256x1_S256x144) (k0_pay2 v0))
    _ p c ⟨c.val / 144, by omega⟩ ⟨c.val % 144, by omega⟩ rfl rfl).trans ?_
  simp only [scaled_apply, colAt_apply, pay2_row]
  exact (kr3_eq (fun i => v0 (ix2 p i)) c ⟨c.val / 144, by omega⟩ ⟨c.val % 144, by omega⟩ rfl rfl).symm

/-! ## The matrix products -/

/-- The body's three matrix products into a zero accumulator, read at `(p, q)`: plain sums over the shared axis. -/
theorem mm12_apply {φ₁ φ₂ : FTy} (A : FVec Ideal S256x12 φ₁) (B : FVec Ideal S12x512 φ₂) (p : Fin 256) (q : Fin 512) :
    matmul dot_S256x12_S12x512_S256x512_1_0_0_1_n_n none A B (constant S256x512 .f32 0x00000000#32) (ix2 p q)
      = ∑ c : Fin 12, A (ix2 p c) * B (ix2 c q) :=
  matmul_nn_apply _ none A B p q

theorem mm144_apply {φ₁ φ₂ : FTy} (A : FVec Ideal S256x144 φ₁) (B : FVec Ideal S144x512 φ₂) (p : Fin 256) (q : Fin 512) :
    matmul dot_S256x144_S144x512_S256x512_1_0_0_1_n_n none A B (constant S256x512 .f32 0x00000000#32) (ix2 p q)
      = ∑ c : Fin 144, A (ix2 p c) * B (ix2 c q) :=
  matmul_nn_apply _ none A B p q

theorem mm1728_apply {φ₁ φ₂ : FTy} (A : FVec Ideal S256x1728 φ₁) (B : FVec Ideal S1728x512 φ₂) (p : Fin 256) (q : Fin 512) :
    matmul dot_S256x1728_S1728x512_S256x512_1_0_0_1_n_n none A B (constant S256x512 .f32 0x00000000#32) (ix2 p q)
      = ∑ c : Fin 1728, A (ix2 p c) * B (ix2 c q) :=
  matmul_nn_apply _ none A B p q

/-- The bias row broadcast down the block, plus the degree-one product. -/
theorem pay1_apply (v0 : Vec Ideal S256x12 .f32) (v1 : Vec Ideal S1x512 .f32) (v6 : Vec Ideal S12x512 .bf16)
    (p : Fin 256) (q : Fin 512) :
    k0_pay1 (F := Ideal) v0 v1 v6 (ix2 p q)
      = v1 (ix2 (0 : Fin 1) q) + ∑ i : Fin 12, v0 (ix2 p i) * v6 (ix2 i q) := by
  unfold k0_pay1
  simp only [addf_apply, shapeCast_self, broadcastTo_1n_an_apply, mm12_apply, truncf_apply]

/-- Onto what came before: the degree-two and degree-three products and block 0 of the degree-four term. -/
theorem pay6_apply (v0 : Vec Ideal S256x12 .f32) (v9 : FVec Ideal S256x512 .f32) (v46 : FVec Ideal S256x144 .f32)
    (v47 : FVec Ideal S256x144 .bf16) (v49 : FVec Ideal S144x512 .bf16) (v90 v98 : Vec Ideal S1728x512 .bf16)
    (p : Fin 256) (q : Fin 512) :
    k0_pay6 (F := Ideal) v0 v9 v46 v47 v49 v90 v98 (ix2 p q)
      = v9 (ix2 p q) + ∑ c : Fin 144, v47 (ix2 p c) * v49 (ix2 c q)
        + ∑ c : Fin 1728, k0_pay5 v0 v46 (ix2 p c) * v90 (ix2 c q)
        + ∑ c : Fin 1728, (v0 (ix2 p 0) * k0_pay5 v0 v46 (ix2 p c)) * v98 (ix2 c q) := by
  unfold k0_pay6
  simp only [addf_apply, shapeCast_self, mm144_apply, mm1728_apply, truncf_apply, scaled_apply, slice_col 0 0 rfl]

/-- Column 1 of the row block, as the body cuts it. -/
theorem pay7_apply (v0 : Vec Ideal S256x12 .f32) (p : Fin 256) :
    k0_pay7 (F := Ideal) v0 (ix2 p (0 : Fin 1)) = v0 (ix2 p 1) := by
  unfold k0_pay7
  exact slice_col 1 1 rfl v0 _ p

/-- Blocks 1 to 5 of the degree-four term, added one after the other. -/
theorem pay8_apply (v0 : Vec Ideal S256x12 .f32) (v88 : FVec Ideal S256x1728 .f32) (v101 : FVec Ideal S256x512 .f32)
    (v102 : FVec Ideal S256x1 .f32) (v106 v114 v122 v130 v138 : Vec Ideal S1728x512 .bf16) (p : Fin 256) (q : Fin 512) :
    k0_pay8 (F := Ideal) v0 v88 v101 v102 v106 v114 v122 v130 v138 (ix2 p q)
      = v101 (ix2 p q) + ∑ c : Fin 1728, (v102 (ix2 p (0 : Fin 1)) * v88 (ix2 p c)) * v106 (ix2 c q)
        + ∑ c : Fin 1728, (v0 (ix2 p 2) * v88 (ix2 p c)) * v114 (ix2 c q)
        + ∑ c : Fin 1728, (v0 (ix2 p 3) * v88 (ix2 p c)) * v122 (ix2 c q)
        + ∑ c : Fin 1728, (v0 (ix2 p 4) * v88 (ix2 p c)) * v130 (ix2 c q)
        + ∑ c : Fin 1728, (v0 (ix2 p 5) * v88 (ix2 p c)) * v138 (ix2 c q) := by
  unfold k0_pay8
  simp only [addf_apply, shapeCast_self, mm1728_apply, truncf_apply, scaled_apply, slice_col 2 2 rfl, slice_col 3 3 rfl,
    slice_col 4 4 rfl, slice_col 5 5 rfl]

/-- Column 6 times the degree-three power. -/
theorem pay9_apply (v0 : Vec Ideal S256x12 .f32) (v88 : FVec Ideal S256x1728 .f32) (p : Fin 256) (c : Fin 1728) :
    k0_pay9 (F := Ideal) v0 v88 (ix2 p c) = v0 (ix2 p 6) * v88 (ix2 p c) := by
  unfold k0_pay9
  simp only [truncf_apply, scaled_apply, slice_col 6 6 rfl]

/-- Blocks 6 to 11 of the degree-four term, added one after the other. -/
theorem pay10_apply (v0 : Vec Ideal S256x12 .f32) (v88 : FVec Ideal S256x1728 .f32) (v141 : FVec Ideal S256x512 .f32)
    (v145 : FVec Ideal S256x1728 .bf16) (v146 v154 v162 v170 v178 v186 : Vec Ideal S1728x512 .bf16)
    (p : Fin 256) (q : Fin 512) :
    k0_pay10 (F := Ideal) v0 v88 v141 v145 v146 v154 v162 v170 v178 v186 (ix2 p q)
      = v141 (ix2 p q) + ∑ c : Fin 1728, v145 (ix2 p c) * v146 (ix2 c q)
        + ∑ c : Fin 1728, (v0 (ix2 p 7) * v88 (ix2 p c)) * v154 (ix2 c q)
        + ∑ c : Fin 1728, (v0 (ix2 p 8) * v88 (ix2 p c)) * v162 (ix2 c q)
        + ∑ c : Fin 1728, (v0 (ix2 p 9) * v88 (ix2 p c)) * v170 (ix2 c q)
        + ∑ c : Fin 1728, (v0 (ix2 p 10) * v88 (ix2 p c)) * v178 (ix2 c q)
        + ∑ c : Fin 1728, (v0 (ix2 p 11) * v88 (ix2 p c)) * v186 (ix2 c q) := by
  unfold k0_pay10
  simp only [addf_apply, shapeCast_self, mm1728_apply, truncf_apply, scaled_apply, slice_col 7 7 rfl, slice_col 8 8 rfl,
    slice_col 9 9 rfl, slice_col 10 10 rfl, slice_col 11 11 rfl]

/-! ## The whole body -/

theorem hz : (![0, 0] : Fin 2 → Nat) = fun _ => 0 := funext fun a => by fin_cases a <;> rfl

/-- Band `i` of the last weight matrix — its rows `1728 i, 1728 i + 1, …` — loaded as a `[1728, 512]` array: entry
    `(c, q)` is the matrix's entry at position `1728 i + c` of the degree-four axis. -/
theorem band_apply (i : Fin 12) (o : ℕ) (ho : o = 1728 * i.val)
    (inb : ∀ a, (![o, 0] : Fin 2 → ℕ) a + S1728x512.size a ≤ S20736x512.size a)
    (x5 : Vec Ideal S20736x512 .bf16) (c : Fin 1728) (q : Fin 512) :
    View.ld x5 (Rect.unit (s := S20736x512) ![o, 0] S1728x512.size inb) (ix2 c q) = x5 (ix2 (at4 i c) q) :=
  ld_rows_apply o inb x5 c q (at4 i c) (by subst ho; show c.val + 1728 * i.val = 1728 * i.val + c.val; omega)

/-- The same as one equation between arrays. -/
theorem band_eq (i : Fin 12) (o : ℕ) (ho : o = 1728 * i.val)
    (inb : ∀ a, (![o, 0] : Fin 2 → ℕ) a + S1728x512.size a ≤ S20736x512.size a) (x5 : Vec Ideal S20736x512 .bf16) :
    View.ld x5 (Rect.unit (s := S20736x512) ![o, 0] S1728x512.size inb)
      = fun y : S1728x512.Idx => x5 (ix2 (at4 i (y 0)) (y 1)) := by
  funext y
  obtain ⟨c, q, rfl⟩ : ∃ (c : Fin 1728) (q : Fin 512), y = ix2 c q := ⟨y 0, y 1, eq_ix2 y⟩
  exact band_apply i o ho inb x5 c q

/-- ENTRY `(p, q)` OF THE BODY'S RESULT is the polynomial of row `p` of the row block, of the bias entry `q`, and of
    column `q` of the four weight matrices. -/
theorem out_apply (x0 : Vec Ideal S256x12 .f32) (x1 : Vec Ideal S1x512 .f32) (x2 : Vec Ideal S12x512 .bf16)
    (x3 : Vec Ideal S144x512 .bf16) (x4 : Vec Ideal S1728x512 .bf16) (x5 : Vec Ideal S20736x512 .bf16)
    (p : Fin 256) (q : Fin 512) :
    out0_6 (F := Ideal) x0 x1 x2 x3 x4 x5 (ix2 p q)
      = poly (fun i => x0 (ix2 p i)) (x1 (ix2 (0 : Fin 1) q)) (fun i => x2 (ix2 i q)) (fun c => x3 (ix2 c q))
          (fun c => x4 (ix2 c q)) (fun c => x5 (ix2 c q)) := by
  unfold out0_6
  rw [View.canon_unit_zero hz]
  simp only [View.ld_unit_zero (S := S256x12) hz, View.ld_unit_zero (S := S1x512) hz, View.ld_unit_zero (S := S12x512) hz,
    View.ld_unit_zero (S := S144x512) hz, View.ld_unit_zero (S := S1728x512) hz]
  rw [band_eq 0 0 rfl, band_eq 1 1728 rfl, band_eq 2 3456 rfl, band_eq 3 5184 rfl, band_eq 4 6912 rfl,
    band_eq 5 8640 rfl, band_eq 6 10368 rfl, band_eq 7 12096 rfl, band_eq 8 13824 rfl, band_eq 9 15552 rfl,
    band_eq 10 17280 rfl, band_eq 11 19008 rfl]
  rw [pay10_apply, pay8_apply, pay6_apply, pay1_apply]
  simp only [pay9_apply, pay7_apply, pay5_row, pay2_row, k0_pay3, k0_pay4, truncf_apply, shapeCast_self]
  exact poly_of_blocks (fun i => x0 (ix2 p i)) (x1 (ix2 (0 : Fin 1) q)) (fun i => x2 (ix2 i q)) (fun c => x3 (ix2 c q))
    (fun c => x4 (ix2 c q)) (fun c => x5 (ix2 c q))

end Cert.KernelIdeal.Row

end
-- ==== Proof.Spec.lean ====
/-
  The result array as ONE function of the six argument arrays.

  Entry `(b, o)` of the `[8192, 512]` result is the polynomial `poly` of row `b` of the input, of the bias entry `o`, and of
  row `o` of each of the four weight matrices (weights are stored with the output coordinate on the FIRST axis).
-/
import proofs.«149518_j74904229642683_2_alg».proof.Proof.Poly
import Idealize.ShloMosaic.Lib.ValueIdx

noncomputable section

namespace Cert.PiNet

open Idealize.ShloMosaic Idealize.ShloMosaic.ValueIdx

/-- One entry of the result. -/
def entry (X : (⟨2, ![8192, 12]⟩ : Shape).Idx → EReal) (W0 : (⟨2, ![512, 1]⟩ : Shape).Idx → EReal)
    (W1 : (⟨2, ![512, 12]⟩ : Shape).Idx → EReal) (W2 : (⟨2, ![512, 144]⟩ : Shape).Idx → EReal)
    (W3 : (⟨2, ![512, 1728]⟩ : Shape).Idx → EReal) (W4 : (⟨2, ![512, 20736]⟩ : Shape).Idx → EReal)
    (b : Fin 8192) (o : Fin 512) : EReal :=
  poly (fun i => X (ix2 b i)) (W0 (ix2 o (0 : Fin 1))) (fun i => W1 (ix2 o i)) (fun c => W2 (ix2 o c))
    (fun c => W3 (ix2 o c)) (fun c => W4 (ix2 o c))

/-- The whole result. -/
def G (X : (⟨2, ![8192, 12]⟩ : Shape).Idx → EReal) (W0 : (⟨2, ![512, 1]⟩ : Shape).Idx → EReal)
    (W1 : (⟨2, ![512, 12]⟩ : Shape).Idx → EReal) (W2 : (⟨2, ![512, 144]⟩ : Shape).Idx → EReal)
    (W3 : (⟨2, ![512, 1728]⟩ : Shape).Idx → EReal) (W4 : (⟨2, ![512, 20736]⟩ : Shape).Idx → EReal) :
    (⟨2, ![8192, 512]⟩ : Shape).Idx → EReal :=
  fun j => entry X W0 W1 W2 W3 W4 (j 0) (j 1)

/-- Two polynomials are equal when their six arguments are. -/
theorem poly_congr {x x' : Fin 12 → EReal} {a a' : EReal} {w1 w1' : Fin 12 → EReal} {w2 w2' : Fin 144 → EReal}
    {w3 w3' : Fin 1728 → EReal} {w4 w4' : Fin 20736 → EReal} (hx : x = x') (ha : a = a') (h1 : w1 = w1') (h2 : w2 = w2')
    (h3 : w3 = w3') (h4 : w4 = w4') : poly x a w1 w2 w3 w4 = poly x' a' w1' w2' w3' w4' := by
  subst hx ha h1 h2 h3 h4; rfl

end Cert.PiNet

end
-- ==== Proof.LibUnitAxes.lean ====
/-
  A matrix carried with two leading axes of extent one, and a matrix transposed, read at an index.

  An `[1, 1, a, b]` array re-laid as `[a, b]` has at `(p, c)` the entry `(0, 0, p, c)`, and the other way round; the
  row-major position of `(0, 0, p, c)` among `1 · 1 · a · b` entries is that of `(p, c)` among `a · b`.
  The transpose of an `[a, b]` matrix has at `(p, c)` the entry `(c, p)`.
-/
import Idealize.ShloMosaic.Lib.Pipeline.Value
import Idealize.ShloMosaic.Lib.ValueIdx

noncomputable section

namespace Cert.Layout

open Idealize.ShloMosaic Idealize.ShloMosaic.ValueIdx

variable {α : Type}

/-- Dropping two leading unit axes: entry `(p, c)` of the matrix is entry `(0, 0, p, c)` of the operand. -/
theorem shapeCast_11ab_ab_apply {a b : ℕ} (v : (⟨4, ![1, 1, a, b]⟩ : Shape).Idx → α)
    (h : (⟨4, ![1, 1, a, b]⟩ : Shape).ShapeCasts ⟨2, ![a, b]⟩) (p : Fin a) (c : Fin b) :
    shapeCast (⟨2, ![a, b]⟩ : Shape) v h (ix2 p c) = v (ix4 (0 : Fin 1) (0 : Fin 1) p c) := by
  refine shapeCast_apply v h (ix2 p c) (ix4 (0 : Fin 1) (0 : Fin 1) p c) ?_
  rw [Shape.rowMajor_val_four, Shape.rowMajor_val_two]
  show ((0 * 1 + 0) * a + p.val) * b + c.val = p.val * b + c.val
  simp

/-- Adding two leading unit axes: entry `(0, 0, p, c)` of the result is entry `(p, c)` of the matrix. -/
theorem shapeCast_ab_11ab_apply {a b : ℕ} (v : (⟨2, ![a, b]⟩ : Shape).Idx → α)
    (h : (⟨2, ![a, b]⟩ : Shape).ShapeCasts ⟨4, ![1, 1, a, b]⟩) (p : Fin a) (c : Fin b) :
    shapeCast (⟨4, ![1, 1, a, b]⟩ : Shape) v h (ix4 (0 : Fin 1) (0 : Fin 1) p c) = v (ix2 p c) := by
  refine shapeCast_apply v h (ix4 (0 : Fin 1) (0 : Fin 1) p c) (ix2 p c) ?_
  rw [Shape.rowMajor_val_four, Shape.rowMajor_val_two]
  show p.val * b + c.val = ((0 * 1 + 0) * a + p.val) * b + c.val
  simp

/-- The transpose of a matrix: entry `(p, c)` is entry `(c, p)` of the operand. -/
theorem transpose_ab_apply {a b : ℕ} (v : (⟨2, ![a, b]⟩ : Shape).Idx → α)
    (h : (⟨2, ![a, b]⟩ : Shape).Transposes [1, 0] ⟨2, ![b, a]⟩) (p : Fin b) (c : Fin a) :
    transpose (⟨2, ![b, a]⟩ : Shape) [1, 0] v h (ix2 p c) = v (ix2 c p) := by
  refine transpose_apply [1, 0] v h (ix2 p c) (ix2 c p) fun ax => ?_
  match ax with
  | ⟨0, _⟩ => rfl
  | ⟨1, _⟩ => rfl

end Cert.Layout

end
-- ==== Proof.KernelValue.lean ====
/-
  The kernel's result array after the run, as ONE function of the argument arrays.

  Before the region the host transposes the bias and the four weight matrices, so that the output coordinate is on the
  second axis (the change of float format after each transposition is the identity at the ideal values).  The grid has
  32 points; point `t` reads rows `256 t … 256 t + 255` of the input, the whole transposed bias and weights, and
  writes rows `256 t … 256 t + 255` of the result.  What it writes is block `t` of `G` of the arguments, and the 32 row
  blocks cover the result array.
-/
import proofs.«149518_j74904229642683_2_alg».proof.Proof.Gen.KernelIdeal.Value
import proofs.«149518_j74904229642683_2_alg».proof.Proof.KernelRow
import proofs.«149518_j74904229642683_2_alg».proof.Proof.Spec
import proofs.«149518_j74904229642683_2_alg».proof.Proof.LibUnitAxes
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Row Cert.PiNet Cert.Layout

variable (m : (ℓ : Loc nD τ sig) → Buf (Elt Ideal) ℓ) (ρ : Dev nD → PrngReg)

/-! ## The index maps -/

/-- Over the 32 grid points: the input's and the result's block index is `(t, 0)`, every other window's is `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The arrays as the region finds them -/

theorem V_bias (c : Dev nD) : (V m c main_v0 : S1x512.Idx → EReal)
    = transpose S1x512 [1, 0] (m ((c : Thread nD τ).loc main_arg1)) Facts₀.transposes_S512x1_S1x512_1_0 := by
  dsimp only [Gen.V, Gen.hostOps0]; after_results

theorem V_w1 (c : Dev nD) : (V m c main_v2 : S12x512.Idx → EReal)
    = truncf (F := Ideal) .bf16 (transpose S12x512 [1, 0] (m ((c : Thread nD τ).loc main_arg2)) Facts₀.transposes_S512x12_S12x512_1_0)
        Facts₀.bitsLt_bf16_f32 := by
  dsimp only [Gen.V, Gen.hostOps0]; after_results

theorem V_w2 (c : Dev nD) : (V m c main_v4 : S144x512.Idx → EReal)
    = truncf (F := Ideal) .bf16 (transpose S144x512 [1, 0] (m ((c : Thread nD τ).loc main_arg3)) Facts₀.transposes_S512x144_S144x512_1_0)
        Facts₀.bitsLt_bf16_f32 := by
  dsimp only [Gen.V, Gen.hostOps0]; after_results

theorem V_w3 (c : Dev nD) : (V m c main_v6 : S1728x512.Idx → EReal)
    = truncf (F := Ideal) .bf16 (transpose S1728x512 [1, 0] (m ((c : Thread nD τ).loc main_arg4)) Facts₀.transposes_S512x1728_S1728x512_1_0)
        Facts₀.bitsLt_bf16_f32 := by
  dsimp only [Gen.V, Gen.hostOps0]; after_results

theorem V_w4 (c : Dev nD) : (V m c main_v8 : S20736x512.Idx → EReal)
    = truncf (F := Ideal) .bf16 (transpose S20736x512 [1, 0] (m ((c : Thread nD τ).loc main_arg5)) Facts₀.transposes_S512x20736_S20736x512_1_0)
        Facts₀.bitsLt_bf16_f32 := by
  dsimp only [Gen.V, Gen.hostOps0]; after_results

/-! ## The windows' blocks, read at an index -/

/-- The input's block at point `t` is rows `256 t …` of the input. -/
theorem rows_apply (c : Dev nD) (t : Fin cfg0.N) (p : Fin 256) (i : Fin 12) (b : Fin 8192) (hb : b.val = 256 * t.val + p.val) :
    (iblk m c 0 t : Vec Ideal S256x12 .f32) (ix2 p i)
      = (m ((c : Thread nD τ).loc main_arg0) : S8192x12.Idx → EReal) (ix2 b i) := by
  obtain ⟨h0, h1, -⟩ := idx_facts t
  unfold iblk
  rw [View.read_apply]
  show V m c main_arg0 _ = _
  rw [V_main_arg0]
  refine congrArg _ (funext fun a => Fin.ext ?_)
  match a with
  | ⟨0, _⟩ => show win0_0.index t 0 * 256 + 1 * p.val = b.val; rw [h0, hb]; omega
  | ⟨1, _⟩ => show win0_0.index t 1 * 12 + 1 * i.val = i.val; rw [h1]; omega

/-- The bias window's block is the transposed bias: entry `(0, q)` is the bias entry `q`. -/
theorem bias_apply (c : Dev nD) (t : Fin cfg0.N) (q : Fin 512) :
    (iblk m c 1 t : Vec Ideal S1x512 .f32) (ix2 (0 : Fin 1) q)
      = (m ((c : Thread nD τ).loc main_arg1) : S512x1.Idx → EReal) (ix2 q (0 : Fin 1)) := by
  obtain ⟨-, -, h0, h1, -⟩ := idx_facts t
  unfold iblk
  rw [View.read_apply]
  show V m c main_v0 _ = _
  have he : ((cfg0.win 1).blk t).view.emb (ix2 (0 : Fin 1) q) = ix2 (0 : Fin 1) q := funext fun a => Fin.ext (by
    match a with
    | ⟨0, _⟩ => show win0_1.index t 0 * 1 + 1 * 0 = 0; rw [h0]
    | ⟨1, _⟩ => show win0_1.index t 1 * 512 + 1 * q.val = q.val; rw [h1]; omega)
  rw [he, V_bias]
  exact transpose_ab_apply _ _ (0 : Fin 1) q

/-- The degree-one weights' block is the transposed matrix: entry `(i, q)` is the matrix's `(q, i)`. -/
theorem w1_apply (c : Dev nD) (t : Fin cfg0.N) (i : Fin 12) (q : Fin 512) :
    (iblk m c 2 t : Vec Ideal S12x512 .bf16) (ix2 i q)
      = (m ((c : Thread nD τ).loc main_arg2) : S512x12.Idx → EReal) (ix2 q i) := by
  obtain ⟨-, -, -, -, h0, h1, -⟩ := idx_facts t
  unfold iblk
  rw [View.read_apply]
  show V m c main_v2 _ = _
  have he : ((cfg0.win 2).blk t).view.emb (ix2 i q) = ix2 i q := funext fun a => Fin.ext (by
    match a with
    | ⟨0, _⟩ => show win0_2.index t 0 * 12 + 1 * i.val = i.val; rw [h0]; omega
    | ⟨1, _⟩ => show win0_2.index t 1 * 512 + 1 * q.val = q.val; rw [h1]; omega)
  rw [he, V_w1, truncf_apply]
  exact transpose_ab_apply _ _ i q

/-- The degree-two weights' block: entry `(k, q)` is the matrix's `(q, k)`. -/
theorem w2_apply (c : Dev nD) (t : Fin cfg0.N) (k : Fin 144) (q : Fin 512) :
    (iblk m c 3 t : Vec Ideal S144x512 .bf16) (ix2 k q)
      = (m ((c : Thread nD τ).loc main_arg3) : S512x144.Idx → EReal) (ix2 q k) := by
  obtain ⟨-, -, -, -, -, -, h0, h1, -⟩ := idx_facts t
  unfold iblk
  rw [View.read_apply]
  show V m c main_v4 _ = _
  have he : ((cfg0.win 3).blk t).view.emb (ix2 k q) = ix2 k q := funext fun a => Fin.ext (by
    match a with
    | ⟨0, _⟩ => show win0_3.index t 0 * 144 + 1 * k.val = k.val; rw [h0]; omega
    | ⟨1, _⟩ => show win0_3.index t 1 * 512 + 1 * q.val = q.val; rw [h1]; omega)
  rw [he, V_w2, truncf_apply]
  exact transpose_ab_apply _ _ k q

/-- The degree-three weights' block: entry `(k, q)` is the matrix's `(q, k)`. -/
theorem w3_apply (c : Dev nD) (t : Fin cfg0.N) (k : Fin 1728) (q : Fin 512) :
    (iblk m c 4 t : Vec Ideal S1728x512 .bf16) (ix2 k q)
      = (m ((c : Thread nD τ).loc main_arg4) : S512x1728.Idx → EReal) (ix2 q k) := by
  obtain ⟨-, -, -, -, -, -, -, -, h0, h1, -⟩ := idx_facts t
  unfold iblk
  rw [View.read_apply]
  show V m c main_v6 _ = _
  have he : ((cfg0.win 4).blk t).view.emb (ix2 k q) = ix2 k q := funext fun a => Fin.ext (by
    match a with
    | ⟨0, _⟩ => show win0_4.index t 0 * 1728 + 1 * k.val = k.val; rw [h0]; omega
    | ⟨1, _⟩ => show win0_4.index t 1 * 512 + 1 * q.val = q.val; rw [h1]; omega)
  rw [he, V_w3, truncf_apply]
  exact transpose_ab_apply _ _ k q

/-- The degree-four weights' block: entry `(k, q)` is the matrix's `(q, k)`. -/
theorem w4_apply (c : Dev nD) (t : Fin cfg0.N) (k : Fin 20736) (q : Fin 512) :
    (iblk m c 5 t : Vec Ideal S20736x512 .bf16) (ix2 k q)
      = (m ((c : Thread nD τ).loc main_arg5) : S512x20736.Idx → EReal) (ix2 q k) := by
  obtain ⟨-, -, -, -, -, -, -, -, -, -, h0, h1, -⟩ := idx_facts t
  unfold iblk
  rw [View.read_apply]
  show V m c main_v8 _ = _
  have he : ((cfg0.win 5).blk t).view.emb (ix2 k q) = ix2 k q := funext fun a => Fin.ext (by
    match a with
    | ⟨0, _⟩ => show win0_5.index t 0 * 20736 + 1 * k.val = k.val; rw [h0]; omega
    | ⟨1, _⟩ => show win0_5.index t 1 * 512 + 1 * q.val = q.val; rw [h1]; omega)
  rw [he, V_w4, truncf_apply]
  exact transpose_ab_apply _ _ k q

/-! ## From blocks to the array -/

/-- The result the run ends with, of the launch memory. -/
abbrev result (c : Dev nD) : S8192x512.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` of `G` of the arguments. -/
theorem flushed_eq (c : Dev nD) (t : Fin cfg0.N) :
    (dats m 0 c).flushed 6 t = ((cfg0.win 6).blk t).view.read (Elt Ideal) (result m c) := by
  have hN : t.val < 32 := Nat.lt_of_lt_of_eq t.isLt (N_0 : cfg0.N = 32)
  obtain ⟨-, -, -, -, -, -, -, -, -, -, -, -, h0, h1⟩ := idx_facts t
  rw [Value.flushed6]
  funext y
  obtain ⟨p, q, rfl⟩ : ∃ (p : Fin 256) (q : Fin 512), y = ix2 p q := ⟨y 0, y 1, eq_ix2 y⟩
  show out0_6 (iblk m c 0 t) (iblk m c 1 t) (iblk m c 2 t) (iblk m c 3 t) (iblk m c 4 t) (iblk m c 5 t) (ix2 p q)
    = result m c (((cfg0.win 6).blk t).view.emb (ix2 p q))
  have he : ((cfg0.win 6).blk t).view.emb (ix2 p q)
      = ix2 (⟨256 * t.val + p.val, by have := p.isLt; omega⟩ : Fin 8192) q := funext fun a => Fin.ext (by
    match a with
    | ⟨0, _⟩ => show win0_6.index t 0 * 256 + 1 * p.val = 256 * t.val + p.val; rw [h0]; omega
    | ⟨1, _⟩ => show win0_6.index t 1 * 512 + 1 * q.val = q.val; rw [h1]; omega)
  rw [he]
  exact (out_apply (iblk m c 0 t) (iblk m c 1 t) (iblk m c 2 t) (iblk m c 3 t) (iblk m c 4 t) (iblk m c 5 t) p q).trans
    (poly_congr (funext fun i => rows_apply m c t p i _ rfl) (bias_apply m c t q) (funext fun i => w1_apply m c t i q)
      (funext fun k => w2_apply m c t k q) (funext fun k => w3_apply m c t k q) (funext fun k => w4_apply m c t k q))

/-- An index of the result is in point `t`'s block iff each coordinate is in the block's range on its axis. -/
theorem mem_blk (t : Fin cfg0.N) (i : S8192x512.Idx) :
    i ∈ ((cfg0.win 6).blk t).view.set ↔ ∀ a : Fin 2, win0_6.index t a * S256x512.size a ≤ (i a).val
      ∧ (i a).val < win0_6.index t a * S256x512.size a + S256x512.size a := by
  show i ∈ ((View.whole main_v9).slice (win0_6.rect t)).set ↔ _
  rw [View.set_slice_whole, Rect.mem_set_unit]
  exact Iff.rfl

/-- THE RESULT ARRAY after the run is `G` of the arguments: row `r` is written by point `r / 256`. -/
theorem final (c : Dev nD) : (dats m 0 c).arrAt 6 cfg0.N = result m c :=
  (dats m 0 c).arrAt_eq_of_cover 6 (result m c) (fun t _ => flushed_eq m c t) fun i => by
    have hi0 : (i 0).val < 8192 := (i 0).isLt
    have hi1 : (i 1).val < 512 := (i 1).isLt
    let t : Fin cfg0.N := ⟨(i 0).val / 256, by rw [show cfg0.N = 32 from N_0]; omega⟩
    obtain ⟨-, -, -, -, -, -, -, -, -, -, -, -, h0, h1⟩ := idx_facts t
    refine ⟨t, flush0_6 t, ?_⟩
    rw [mem_blk]
    intro a
    match a with
    | ⟨0, _⟩ =>
      show win0_6.index t 0 * 256 ≤ (i 0).val ∧ (i 0).val < win0_6.index t 0 * 256 + 256
      rw [h0]; show (i 0).val / 256 * 256 ≤ (i 0).val ∧ (i 0).val < (i 0).val / 256 * 256 + 256; omega
    | ⟨1, _⟩ =>
      show win0_6.index t 1 * 512 ≤ (i 1).val ∧ (i 1).val < win0_6.index t 1 * 512 + 512
      rw [h1]; omega

/-- THE RUN, READ: the result array ends at `G` of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefEntry.lean ====
/-
  One entry of the reference's result, at the ideal values.

  The reference works with the batch on the second axis.  It transposes the input, forms the Khatri–Rao powers of its
  columns by broadcasting two copies against each other and flattening the two leading axes (`z[i·K + c, b] = x[b, i] ·
  z'[c, b]`), contracts each power with its weight matrix, adds the five products (the bias as a product with a row of
  ones) and transposes back.  Entry `(b, o)` of the result is the polynomial `poly` of row `b` of the input and of row `o`
  of the bias and the weights.
-/
import proofs.«149518_j74904229642683_2_alg».proof.Proof.Gen.ReferenceIdeal.Read
import proofs.«149518_j74904229642683_2_alg».proof.Proof.Poly
import proofs.«149518_j74904229642683_2_alg».proof.Proof.Spec
import Idealize.ShloMosaic.Lib.IdealHost
import Idealize.ShloMosaic.Lib.ValueIdx

noncomputable section

namespace Cert.ReferenceIdeal.Entry

open Idealize.ShloMosaic Idealize.ShloMosaic.ValueIdx
open Cert.ReferenceIdeal Cert.ReferenceIdeal.Read Cert.PiNet

variable (x0 : (⟨S8192x12, .f32⟩ : BufTy).Contents (Elt Ideal))

/-- The transposed input at `(i, b)` is the input at `(b, i)`. -/
theorem xT_apply (i : Fin 12) (b : Fin 8192) : val_main_v0 (F := Ideal) x0 (ix2 i b) = x0 (ix2 b i) := by
  rw [val_main_v0_apply]
  exact congrArg x0 (funext fun a => Fin.ext (by
    match a with
    | ⟨0, _⟩ => rfl
    | ⟨1, _⟩ => rfl))

/-- The degree-two power, batch on the second axis: column `b` is `kr2` of row `b` of the input. -/
theorem z2_apply (c : Fin 144) (b : Fin 8192) :
    val_main_v10 (F := Ideal) x0 (ix2 c b) = kr2 (fun i => x0 (ix2 b i)) c := by
  have hc := c.isLt
  have hb := b.isLt
  rw [val_main_v10_apply, val_main_v9_apply, val_main_v7_apply, val_main_v8_apply, val_main_v5_apply, val_main_v6_apply,
    Ideal.mulf_def]
  have e1 : idx_main_v5 (idx_main_v7 (idx_main_v10 (ix2 c b))) = ix2 (⟨c.val / 12, by omega⟩ : Fin 12) b :=
    funext fun a => Fin.ext (by
      match a with
      | ⟨0, _⟩ => show (c.val * 8192 + b.val) / _ = c.val / 12; omega
      | ⟨1, _⟩ => show (c.val * 8192 + b.val) % _ = b.val; omega)
  have e2 : idx_main_v6 (idx_main_v8 (idx_main_v10 (ix2 c b))) = ix2 (⟨c.val % 12, by omega⟩ : Fin 12) b :=
    funext fun a => Fin.ext (by
      match a with
      | ⟨0, _⟩ => show (c.val * 8192 + b.val) / _ % _ = c.val % 12; omega
      | ⟨1, _⟩ => show (c.val * 8192 + b.val) % _ = b.val; omega)
  rw [e1, e2, xT_apply, xT_apply]
  exact (kr2_eq (fun i => x0 (ix2 b i)) c ⟨c.val / 12, by omega⟩ ⟨c.val % 12, by omega⟩ rfl rfl).symm

/-- The degree-three power: column `b` is `kr3` of row `b` of the input. -/
theorem z3_apply (c : Fin 1728) (b : Fin 8192) :
    val_main_v18 (F := Ideal) x0 (ix2 c b) = kr3 (fun i => x0 (ix2 b i)) c := by
  have hc := c.isLt
  have hb := b.isLt
  rw [val_main_v18_apply, val_main_v17_apply, val_main_v15_apply, val_main_v16_apply, val_main_v13_apply,
    val_main_v14_apply, Ideal.mulf_def]
  have e1 : idx_main_v13 (idx_main_v15 (idx_main_v18 (ix2 c b))) = ix2 (⟨c.val / 144, by omega⟩ : Fin 12) b :=
    funext fun a => Fin.ext (by
      match a with
      | ⟨0, _⟩ => show (c.val * 8192 + b.val) / _ = c.val / 144; omega
      | ⟨1, _⟩ => show (c.val * 8192 + b.val) % _ = b.val; omega)
  have e2 : idx_main_v14 (idx_main_v16 (idx_main_v18 (ix2 c b))) = ix2 (⟨c.val % 144, by omega⟩ : Fin 144) b :=
    funext fun a => Fin.ext (by
      match a with
      | ⟨0, _⟩ => show (c.val * 8192 + b.val) / _ % _ = c.val % 144; omega
      | ⟨1, _⟩ => show (c.val * 8192 + b.val) % _ = b.val; omega)
  rw [e1, e2, xT_apply, z2_apply]
  exact (kr3_eq (fun i => x0 (ix2 b i)) c ⟨c.val / 144, by omega⟩ ⟨c.val % 144, by omega⟩ rfl rfl).symm

/-- The degree-four power: column `b` is `kr4` of row `b` of the input. -/
theorem z4_apply (c : Fin 20736) (b : Fin 8192) :
    val_main_v26 (F := Ideal) x0 (ix2 c b) = kr4 (fun i => x0 (ix2 b i)) c := by
  have hc := c.isLt
  have hb := b.isLt
  rw [val_main_v26_apply, val_main_v25_apply, val_main_v23_apply, val_main_v24_apply, val_main_v21_apply,
    val_main_v22_apply, Ideal.mulf_def]
  have e1 : idx_main_v21 (idx_main_v23 (idx_main_v26 (ix2 c b))) = ix2 (⟨c.val / 1728, by omega⟩ : Fin 12) b :=
    funext fun a => Fin.ext (by
      match a with
      | ⟨0, _⟩ => show (c.val * 8192 + b.val) / _ = c.val / 1728; omega
      | ⟨1, _⟩ => show (c.val * 8192 + b.val) % _ = b.val; omega)
  have e2 : idx_main_v22 (idx_main_v24 (idx_main_v26 (ix2 c b))) = ix2 (⟨c.val % 1728, by omega⟩ : Fin 1728) b :=
    funext fun a => Fin.ext (by
      match a with
      | ⟨0, _⟩ => show (c.val * 8192 + b.val) / _ % _ = c.val % 1728; omega
      | ⟨1, _⟩ => show (c.val * 8192 + b.val) % _ = b.val; omega)
  rw [e1, e2, xT_apply, z3_apply]
  exact (kr4_eq (fun i => x0 (ix2 b i)) c ⟨c.val / 1728, by omega⟩ ⟨c.val % 1728, by omega⟩ rfl rfl).symm

/-! ## The five products and the result -/

variable (x1 : (⟨S512x1, .f32⟩ : BufTy).Contents (Elt Ideal)) (x2 : (⟨S512x12, .f32⟩ : BufTy).Contents (Elt Ideal))
  (x3 : (⟨S512x144, .f32⟩ : BufTy).Contents (Elt Ideal)) (x4 : (⟨S512x1728, .f32⟩ : BufTy).Contents (Elt Ideal))
  (x5 : (⟨S512x20736, .f32⟩ : BufTy).Contents (Elt Ideal))

/-- ENTRY `(b, o)` OF THE REFERENCE'S RESULT is `entry` of the arguments: the five contractions are sums over the second axis
    of each weight matrix, the row of ones contributes a factor one, and the final transposition swaps the coordinates. -/
theorem ref_apply (b : Fin 8192) (o : Fin 512) :
    val_main_v29 (F := Ideal) x0 x1 x2 x3 x4 x5 (ix2 b o) = entry x0 x1 x2 x3 x4 x5 b o := by
  have e : idx_main_v29 (ix2 b o) = ix2 o b := funext fun a => Fin.ext (by
    match a with
    | ⟨0, _⟩ => rfl
    | ⟨1, _⟩ => rfl)
  rw [val_main_v29_apply, e, val_main_v28_apply, val_main_v20_apply, val_main_v12_apply, val_main_v4_apply,
    val_main_v27_apply, val_main_v19_apply, val_main_v11_apply, val_main_v3_apply, val_main_v2_apply]
  simp only [Ideal.addf_def]
  refine Eq.trans ?_ (poly_of_left (fun i => x0 (ix2 b i)) (fun k => x1 (ix2 o k)) (fun i => x2 (ix2 o i))
    (fun c => x3 (ix2 o c)) (fun c => x4 (ix2 o c)) (fun c => x5 (ix2 o c)))
  refine congrArg₂ (· + ·) (congrArg₂ (· + ·) (congrArg₂ (· + ·) (congrArg₂ (· + ·) ?_ ?_) ?_) ?_) ?_
  · refine Finset.sum_congr rfl fun k _ => ?_
    rw [val_main_v1_apply, val_main_cst_apply, Ideal.ofBits_def, Ideal.ofBits_one_f32]
    exact congrArg (· * (1 : EReal)) (congrArg x1 (funext fun a => Fin.ext (by
      match a with
      | ⟨0, _⟩ => rfl
      | ⟨1, _⟩ => rfl)))
  · refine Finset.sum_congr rfl fun k _ => ?_
    have el : lidx_main_v3 (ix2 o b) k = ix2 o k := funext fun a => Fin.ext (by
      match a with
      | ⟨0, _⟩ => rfl
      | ⟨1, _⟩ => rfl)
    have er : ridx_main_v3 (ix2 o b) k = ix2 k b := funext fun a => Fin.ext (by
      match a with
      | ⟨0, _⟩ => rfl
      | ⟨1, _⟩ => rfl)
    rw [el, er, xT_apply]
  · refine Finset.sum_congr rfl fun k _ => ?_
    have el : lidx_main_v11 (ix2 o b) k = ix2 o k := funext fun a => Fin.ext (by
      match a with
      | ⟨0, _⟩ => rfl
      | ⟨1, _⟩ => rfl)
    have er : ridx_main_v11 (ix2 o b) k = ix2 k b := funext fun a => Fin.ext (by
      match a with
      | ⟨0, _⟩ => rfl
      | ⟨1, _⟩ => rfl)
    rw [el, er, z2_apply]
  · refine Finset.sum_congr rfl fun k _ => ?_
    have el : lidx_main_v19 (ix2 o b) k = ix2 o k := funext fun a => Fin.ext (by
      match a with
      | ⟨0, _⟩ => rfl
      | ⟨1, _⟩ => rfl)
    have er : ridx_main_v19 (ix2 o b) k = ix2 k b := funext fun a => Fin.ext (by
      match a with
      | ⟨0, _⟩ => rfl
      | ⟨1, _⟩ => rfl)
    rw [el, er, z3_apply]
  · refine Finset.sum_congr rfl fun k _ => ?_
    have el : lidx_main_v27 (ix2 o b) k = ix2 o k := funext fun a => Fin.ext (by
      match a with
      | ⟨0, _⟩ => rfl
      | ⟨1, _⟩ => rfl)
    have er : ridx_main_v27 (ix2 o b) k = ix2 k b := funext fun a => Fin.ext (by
      match a with
      | ⟨0, _⟩ => rfl
      | ⟨1, _⟩ => rfl)
    rw [el, er, z4_apply]

/-- THE REFERENCE'S RESULT IS `G` of its arguments. -/
theorem ref_eq : val_main_v29 (F := Ideal) x0 x1 x2 x3 x4 x5 = G x0 x1 x2 x3 x4 x5 := by
  funext j
  obtain ⟨b, o, rfl⟩ : ∃ (b : Fin 8192) (o : Fin 512), j = ix2 b o := ⟨j 0, j 1, eq_ix2 j⟩
  exact ref_apply x0 x1 x2 x3 x4 x5 b o

end Cert.ReferenceIdeal.Entry

end
-- ==== Proof.lean ====
/-
  The kernel and its reference compute one polynomial network of degree four.

  For a batch row `x ∈ ℝ¹²` (extended reals at the ideal values) and an output coordinate `o`, both programs return
    `w₀[o] + ∑ᵢ x[i]·w₁[o,i] + ∑ kr2 x c · w₂[o,c] + ∑ kr3 x c · w₃[o,c] + ∑ kr4 x c · w₄[o,c]`,
  where `kr2 x (12 i + j) = x[i]·x[j]`, `kr3 x (144 i + c) = x[i]·kr2 x c`, `kr4 x (1728 i + c) = x[i]·kr3 x c` are the
  Khatri–Rao powers of the row (Proof/Poly.lean; the result array as one function `G` of the six arguments:
  Proof/Spec.lean).

  The reference keeps the batch on the second axis: it transposes the input, builds each power by broadcasting two
  copies against each other and flattening, contracts each power with its weight matrix, adds the bias as a product with a
  row of ones, and transposes the sum back (Proof/RefEntry.lean: its result is `G`).

  The kernel keeps the batch on the first axis: the host transposes the bias and the weights once, and each of the 32
  grid points takes 256 rows, builds the degree-two and degree-three powers by joining twelve scaled copies side by
  side, and adds to the broadcast bias the four matrix products — the degree-four one never formed whole but as twelve
  products of `x[i]·kr3` with the twelve bands of 1728 rows of the last weight matrix (Proof/KernelRow.lean: one entry of
  a block; Proof/KernelValue.lean: the 32 row blocks cover the result, which is `G`).

  The two sides differ in the order of the factors of each product, in the order and grouping of the terms of the
  degree-four sum, and in changes of float format that are the identity at the ideal values.  Addition and
  multiplication of extended reals are commutative and addition is associative, so the two results agree at EVERY
  input: the finiteness of the inputs is not used.

  The three frames are the generated ones (the reference's is its generated run with the result dropped); the
  idealization rewrote nothing, so `preserves` is `True`.
-/
import proofs.«149518_j74904229642683_2_alg».proof.Defs
import proofs.«149518_j74904229642683_2_alg».proof.Proof.Gen.Kernel
import proofs.«149518_j74904229642683_2_alg».proof.Proof.Gen.Kernel.Skeleton
import proofs.«149518_j74904229642683_2_alg».proof.Proof.Gen.Kernel.Launch
import proofs.«149518_j74904229642683_2_alg».proof.Proof.Gen.Kernel.Points
import proofs.«149518_j74904229642683_2_alg».proof.Proof.Gen.Kernel.Frame
import proofs.«149518_j74904229642683_2_alg».proof.Proof.Gen.KernelIdeal
import proofs.«149518_j74904229642683_2_alg».proof.Proof.Gen.KernelIdeal.Skeleton
import proofs.«149518_j74904229642683_2_alg».proof.Proof.Gen.KernelIdeal.Launch
import proofs.«149518_j74904229642683_2_alg».proof.Proof.Gen.KernelIdeal.Points
import proofs.«149518_j74904229642683_2_alg».proof.Proof.Gen.KernelIdeal.Frame
import proofs.«149518_j74904229642683_2_alg».proof.Proof.Gen.ReferenceIdeal
import proofs.«149518_j74904229642683_2_alg».proof.Proof.Gen.Pre_finite_inputs
import proofs.«149518_j74904229642683_2_alg».proof.Proof.Gen.KernelIdeal.Value
import proofs.«149518_j74904229642683_2_alg».proof.Proof.Gen.ReferenceIdeal.Run
import proofs.«149518_j74904229642683_2_alg».proof.Proof.Gen.ReferenceIdeal.Read
import proofs.«149518_j74904229642683_2_alg».proof.Proof.KernelValue
import proofs.«149518_j74904229642683_2_alg».proof.Proof.RefEntry
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result array at `G` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v29_eq, Cert.ReferenceIdeal.Entry.ref_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
